-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S512x4096 : Shape := ⟨2, ![512, 4096]⟩
abbrev S4096x1024 : Shape := ⟨2, ![4096, 1024]⟩
abbrev S512x1024 : Shape := ⟨2, ![512, 1024]⟩
abbrev S8192x4096 : Shape := ⟨2, ![8192, 4096]⟩
abbrev S1024x4096 : Shape := ⟨2, ![1024, 4096]⟩
abbrev S1024x512 : Shape := ⟨2, ![1024, 512]⟩

abbrev nBuf : Space → Nat
  | .hbm => 14
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S4096x4096, .bf16⟩
  | .hbm, ⟨10, _⟩ => ⟨S4x2048x4096, .bf16⟩
  | .hbm, ⟨11, _⟩ => ⟨S8192x4096, .bf16⟩
  | .hbm, ⟨12, _⟩ => ⟨S8192x4096, .f32⟩
  | .hbm, ⟨13, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x4096, .bf16⟩
  | .local _ .vmem, ⟨7, _⟩ => ⟨S1024x4096, .bf16⟩
  | .local _ .vmem, ⟨8, _⟩ => ⟨S512x4096, .bf16⟩
  | .local _ .vmem, ⟨9, _⟩ => ⟨S512x4096, .bf16⟩
  | .local _ .vmem, ⟨10, _⟩ => ⟨S1024x512, .f32⟩
  | .local _ .vmem, ⟨11, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S512x4096_S4096x1024_S512x1024_1_0_0_1_n_n_wf : DotDims.WF S512x4096 S4096x1024 S512x1024 [1] [0] [0] [1] [] []
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .bf16 = 32 ∨ (Rect.block (s := S4096x4096) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x4096.size a
  hwx1_2 : ∀ i : grid1.Coords, EltTy.bits .f32 = 32 ∨ (Rect.block (s := S8192x4096) S1024x512.size (cc1_transform_2 i) (hinb1_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v4) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.WholeRun.lean ====
/-
  The idealized kernel program, run to its end, with EVERY buffer that outlives the kernels read back.

  The program is five stretches in a row: host operations, the first matrix product's kernel, host operations, the
  second product's kernel, one last host operation. The buffer contents at the four inner boundaries and at the end are
  a fold from the launch memory (`Gen.W1 … Gen.W5`): a host stretch folds its operations' results over what it finds,
  a kernel leaves its windows' arrays at what its write-backs add up to and everything else as it found it. The generated
  frame proof runs these five segments and, of the last boundary, reads back only the four argument arrays. Here the same
  five segments are run and the last boundary is read back whole: every weakly fair execution terminates, and in the
  final memory each buffer that is not a kernel's private staging space holds its contents under `Gen.W5`. The result
  array and the argument arrays are then particular buffers of that family.
-/
import proofs.«147896_j34248069218802_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and the final memory holds, at every
    buffer that outlives the kernels, the contents the fold through the five segments gives it. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; the per-core ghost resources are empty
      iintro Hlaunch; imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- each segment is entered from exactly what the one before it left; the last one's post regroups
      dsimp only [Pipeline.Seg.post, hseg, Pipeline.HostSeg.ofOps]
      iintro ⟨Hbufs, Hreg, Howes⟩
      isplitr [Howes]
      · isplitl [Hbufs]
        · iexact Hbufs
        · iexact Hreg
      · iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => ∀ b ∈ Pipeline.ucRefs τ sig, s.mem (((c : Thread nD τ)).1, b) = W5 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W5 m ρ c) s')
      isplitl [Hbufs] <;> iassumption)
    (hQ := fun s h c => h c)

end Cert.KernelIdeal.Whole

end
-- ==== Proof.BlockProducts.lean ====
/-
  What each kernel body stores, read at one entry of its output block.

  Both bodies load their two input blocks whole, multiply them on the matrix unit into a zero accumulator and store
  the product whole. Over the extended reals a change of float format is the identity and the zero accumulator adds
  nothing, so an entry of the stored block is the plain sum of products over the contracted axis:
  * the first body, on a 512×4096 block `a` of the left factor and a 4096×1024 block `b` of the right one, stores
    `∑ k, a[p,k] · b[k,q]` at `(p,q)` (rows by columns);
  * the second body, on a 1024×4096 block `a` and a 512×4096 block `b`, contracts the SECOND axis of both and stores
    `∑ k, a[p,k] · b[q,k]` at `(p,q)` (rows by rows: a product with the transpose).
-/
import proofs.«147896_j34248069218802_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx
open scoped BigOperators

/-! ## Which operand entries a product entry reads -/

/-- Rows by columns: the left operand's row is the output's row. -/
theorem cols_lhs_row (i : S512x1024.Idx) (s : dot_S512x4096_S4096x1024_S512x1024_1_0_0_1_n_n.contr.Idx) : (dot_S512x4096_S4096x1024_S512x1024_1_0_0_1_n_n.lhsIdx i s 0).val = (i 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl
/-- Rows by columns: the right operand's column is the output's column. -/
theorem cols_rhs_col (i : S512x1024.Idx) (s : dot_S512x4096_S4096x1024_S512x1024_1_0_0_1_n_n.contr.Idx) : (dot_S512x4096_S4096x1024_S512x1024_1_0_0_1_n_n.rhsIdx i s 1).val = (i 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl
/-- Rows by rows: the left operand's row is the output's row. -/
theorem rows_lhs_row (i : S1024x512.Idx) (s : dot_S1024x4096_S512x4096_S1024x512_1_1_0_0_n_n.contr.Idx) : (dot_S1024x4096_S512x4096_S1024x512_1_1_0_0_n_n.lhsIdx i s 0).val = (i 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl
/-- Rows by rows: the right operand's ROW is the output's column. -/
theorem rows_rhs_row (i : S1024x512.Idx) (s : dot_S1024x4096_S512x4096_S1024x512_1_1_0_0_n_n.contr.Idx) : (dot_S1024x4096_S512x4096_S1024x512_1_1_0_0_n_n.rhsIdx i s 0).val = (i 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-! ## The stored blocks -/

/-- The first body's stored block at `(p,q)`: row `p` of the left block against column `q` of the right block. -/
theorem rows_by_cols (a : Vec Ideal S512x4096 .bf16) (b : Vec Ideal S4096x1024 .bf16) (p : Fin 512) (q : Fin 1024) :
    k0_pay1 (F := Ideal) a b (ix2 p q) = ∑ k : Fin 4096, a (ix2 p k) * b (ix2 k q) := by
  unfold k0_pay1
  show FloatOps.matmul (F := Ideal) dot_S512x4096_S4096x1024_S512x1024_1_0_0_1_n_n none
      (shapeCast S512x4096 (α := Ideal .bf16) a shapeCasts_S512x4096_S512x4096)
      (shapeCast S4096x1024 (α := Ideal .bf16) b shapeCasts_S4096x1024_S4096x1024)
      (constant S512x1024 .f32 0x00000000#32) (ix2 p q) = _
  rw [shapeCast_self, shapeCast_self, Ideal.matmul_constant_zero_apply,
    ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p q) ((contrEquiv1 dot_S512x4096_S4096x1024_S512x1024_1_0_0_1_n_n 4096 rfl rfl).symm k) = ix2 p k :=
    funext fun d => Fin.ext (by
      match d with
      | ⟨0, _⟩ => exact cols_lhs_row _ _
      | ⟨1, _⟩ => exact (dot_S512x4096_S4096x1024_S512x1024_1_0_0_1_n_n.lhsIdx_val_of_single rfl _ _).trans hk)
  have er : dot_S512x4096_S4096x1024_S512x1024_1_0_0_1_n_n.rhsIdx (ix2 p q) ((contrEquiv1 dot_S512x4096_S4096x1024_S512x1024_1_0_0_1_n_n 4096 rfl rfl).symm k) = ix2 k q :=
    funext fun d => Fin.ext (by
      match d with
      | ⟨0, _⟩ => exact (dot_S512x4096_S4096x1024_S512x1024_1_0_0_1_n_n.rhsIdx_val_of_single rfl _ _).trans hk
      | ⟨1, _⟩ => exact cols_rhs_col _ _)
  rw [el, er]

/-- The second body's stored block at `(p,q)`: row `p` of the left block against ROW `q` of the right block. -/
theorem rows_by_rows (a : Vec Ideal S1024x4096 .bf16) (b : Vec Ideal S512x4096 .bf16) (p : Fin 1024) (q : Fin 512) :
    k1_pay1 (F := Ideal) a b (ix2 p q) = ∑ k : Fin 4096, a (ix2 p k) * b (ix2 q k) := by
  unfold k1_pay1
  show FloatOps.matmul (F := Ideal) dot_S1024x4096_S512x4096_S1024x512_1_1_0_0_n_n none
      (shapeCast S1024x4096 (α := Ideal .bf16) a shapeCasts_S1024x4096_S1024x4096)
      (shapeCast S512x4096 (α := Ideal .bf16) b shapeCasts_S512x4096_S512x4096)
      (constant S1024x512 .f32 0x00000000#32) (ix2 p q) = _
  rw [shapeCast_self, shapeCast_self, Ideal.matmul_constant_zero_apply,
    ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k :=
    funext fun d => Fin.ext (by
      match d with
      | ⟨0, _⟩ => exact rows_lhs_row _ _
      | ⟨1, _⟩ => exact (dot_S1024x4096_S512x4096_S1024x512_1_1_0_0_n_n.lhsIdx_val_of_single rfl _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k :=
    funext fun d => Fin.ext (by
      match d with
      | ⟨0, _⟩ => exact rows_rhs_row _ _
      | ⟨1, _⟩ => exact (dot_S1024x4096_S512x4096_S1024x512_1_1_0_0_n_n.rhsIdx_val_of_single rfl _ _).trans hk)
  rw [el, er]

end Cert.KernelIdeal.Blocks

end
-- ==== Proof.Products.lean ====
/-
  The two whole-array products the certificate is about, entry by entry, over the extended reals.

  `byCols A B` is the ordinary product of two 4096×4096 matrices: entry `(i,j)` is `∑ k, A[i,k] · B[k,j]`.
  `byRows X W` multiplies an 8192×4096 matrix by the TRANSPOSE of a 4096×4096 one: entry `(i,j)` is
  `∑ k, X[i,k] · W[j,k]`. The kernels compute both tile by tile; the reference computes both at once. The sums are over
  the same index in the same order on both sides, so no law of the extended reals is needed to compare them.
-/
import Idealize.ShloMosaic.PureOps.Ideal
import Idealize.ShloMosaic.Lib.ValueIdx

noncomputable section

namespace Cert.Products

open Idealize.ShloMosaic Idealize.ShloMosaic.ValueIdx
open scoped BigOperators

/-- The square matrices' shape. -/
abbrev Sq : Shape := ⟨2, ![4096, 4096]⟩
/-- The flattened activations' shape: 4 · 2048 rows. -/
abbrev Tall : Shape := ⟨2, ![8192, 4096]⟩

/-- Rows of `A` against columns of `B`. -/
def byCols (A B : Sq.Idx → EReal) : Sq.Idx → EReal :=
  fun i => ∑ k : Fin 4096, A (ix2 (⟨(i 0).val, (i 0).isLt⟩ : Fin 4096) k) * B (ix2 k (⟨(i 1).val, (i 1).isLt⟩ : Fin 4096))

/-- Rows of `X` against rows of `W`. -/
def byRows (X : Tall.Idx → EReal) (W : Sq.Idx → EReal) : Tall.Idx → EReal :=
  fun i => ∑ k : Fin 4096, X (ix2 (⟨(i 0).val, (i 0).isLt⟩ : Fin 8192) k) * W (ix2 (⟨(i 1).val, (i 1).isLt⟩ : Fin 4096) k)

theorem byCols_apply (A B : Sq.Idx → EReal) (i j : Fin 4096) :
    byCols A B (ix2 i j) = ∑ k : Fin 4096, A (ix2 i k) * B (ix2 k j) := rfl

theorem byRows_apply (X : Tall.Idx → EReal) (W : Sq.Idx → EReal) (i : Fin 8192) (j : Fin 4096) :
    byRows X W (ix2 i j) = ∑ k : Fin 4096, X (ix2 i k) * W (ix2 j k) := rfl

end Cert.Products

end
-- ==== Proof.WeightArray.lean ====
/-
  The first kernel's result array: the whole product of its two operand arrays.

  The kernel walks a 4 × 8 grid. At a grid point it is handed a 512-row band of the left operand (all 4096 columns), a
  1024-column band of the right operand (all 4096 rows), and writes back the 512 × 1024 tile of the result where the two
  bands cross. An entry of that tile is the row of the left band against the column of the right band
  (`Blocks.rows_by_cols`), and the band's row is the result's row, the band's column the result's column: so the tile IS
  the corresponding tile of the whole product `Products.byCols`. The 32 tiles are written once each and cover the
  4096 × 4096 result, so the result array ends at the whole product of the operand arrays as the kernel found them.
-/
import proofs.«147896_j34248069218802_2_alg».proof.Proof.Gen.KernelIdeal.Frame
import proofs.«147896_j34248069218802_2_alg».proof.Proof.BlockProducts
import proofs.«147896_j34248069218802_2_alg».proof.Proof.Products
import Idealize.ShloMosaic.Lib.Pipeline.Value
import Idealize.ShloMosaic.Lib.ValueIdx

set_option maxRecDepth 16384

noncomputable section

namespace Cert.KernelIdeal.Weight

open Cert.KernelIdeal Cert.KernelIdeal.Gen Cert.Products
open Idealize.ShloMosaic Idealize.ShloMosaic.TcCoe Idealize.ShloMosaic.ValueIdx Idealize.SL.Sem
open Idealize.ShloMosaic.Pipeline (Dat)
open scoped BigOperators

-- the buffer contents when the kernel is entered
variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at a grid point: the left band shares the tile's block row and starts at column 0,
    the right band starts at row 0 and shares the tile's block column; the tile's block row is below 8, its block column
    below 4. Decided over the 32 points. -/
theorem places : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) < 8 ∧ win0_2.index t (1 : Fin 2) < 4 :=
  (by decide +kernel : ∀ t : Fin grid0.N, _)

/-- Every tile position is some grid point's. -/
theorem every_tile : ∀ (r : Fin 8) (s : Fin 4), ∃ t : Fin cfg0.N, win0_2.index t = ![r.val, s.val] :=
  (by decide +kernel : ∀ (r : Fin 8) (s : Fin 4), ∃ t : Fin grid0.N, win0_2.index t = ![r.val, s.val])

/-- The left band at a point, entry `(p,k)`, is the left operand at row `512·(tile's block row) + p`, column `k`. -/
theorem left_band (c : Dev nD) (t : Fin cfg0.N) (p : Fin 512) (k : Fin 4096) (r : Fin 4096)
    (hr : r.val = win0_2.index t (0 : Fin 2) * 512 + p.val) :
    (iblk0 V c 0 t : S512x4096.Idx → EReal) (ix2 p k) = (V c main_v4 : S4096x4096.Idx → EReal) (ix2 r k) := by
  obtain ⟨e0, e1, -, -, -, -⟩ := places t
  show (V c main_v4 : S4096x4096.Idx → EReal) (((cfg0.win 0).blk t).view.emb (ix2 p k)) = _
  refine congrArg (V c main_v4 : S4096x4096.Idx → EReal) (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- The right band at a point, entry `(k,q)`, is the right operand at row `k`, column `1024·(tile's block column) + q`. -/
theorem right_band (c : Dev nD) (t : Fin cfg0.N) (k : Fin 4096) (q : Fin 1024) (s : Fin 4096)
    (hs : s.val = win0_2.index t (1 : Fin 2) * 1024 + q.val) :
    (iblk0 V c 1 t : S4096x1024.Idx → EReal) (ix2 k q) = (V c main_v3 : S4096x4096.Idx → EReal) (ix2 k s) := by
  obtain ⟨-, -, e2, e3, -, -⟩ := places t
  show (V c main_v3 : S4096x4096.Idx → EReal) (((cfg0.win 1).blk t).view.emb (ix2 k q)) = _
  refine congrArg (V c main_v3 : S4096x4096.Idx → EReal) (funext fun a => Fin.ext ?_)
  match a with
  | ⟨0, _⟩ => show win0_1.index t (0 : Fin 2) * 4096 + 1 * k.val = k.val; omega
  | ⟨1, _⟩ => show win0_1.index t (1 : Fin 2) * 1024 + 1 * q.val = s.val; omega

/-- What a grid point writes back is its tile of the whole product. -/
theorem tile_written (c : Dev nD) (t : Fin cfg0.N) :
    (dat0 V c).flushed 2 t = ((cfg0.win 2).blk t).view.read (Elt Ideal) (byCols (V c main_v4) (V c main_v3)) := by
  show (cfg0.win 2).cut (grid0.coords t) ((dat0 V c).after 2 t) = _
  rw [after0_2]
  unfold out0_2
  rw [View.canon_unit_zero zeros]
  simp only [View.ld_unit_zero (S := S512x4096) zeros, View.ld_unit_zero (S := S4096x1024) zeros]
  obtain ⟨-, -, -, -, b0, b1⟩ := places t
  show (k0_pay1 (F := Ideal) (iblk0 V c 0 t) (iblk0 V c 1 t) : S512x1024.Idx → EReal)
    = fun j => byCols (V c main_v4) (V c main_v3) (((cfg0.win 2).blk t).view.emb j)
  funext j
  obtain ⟨p, q, rfl⟩ : ∃ (p : Fin 512) (q : Fin 1024), j = ix2 p q := ⟨j 0, j 1, eq_ix2 j⟩
  refine (Blocks.rows_by_cols (iblk0 V c 0 t) (iblk0 V c 1 t) p q).trans ?_
  unfold byCols
  refine Finset.sum_congr rfl fun k _ => ?_
  refine congrArg₂ (· * ·) (left_band V c t p k _ ?_) (right_band V c t k q _ ?_)
  · show win0_2.index t (0 : Fin 2) * 512 + 1 * p.val = _; omega
  · show win0_2.index t (1 : Fin 2) * 1024 + 1 * q.val = _; omega

/-- An entry of the result lies in a point's tile iff each coordinate lies in the tile's range. -/
theorem in_tile (t : Fin cfg0.N) (i : S4096x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v5).slice (win0_2.rect t)).set ↔ _
  rw [View.set_slice_whole, Rect.mem_set_unit]
  exact Iff.rfl

/-- The result array after the kernel: the whole product of the operand arrays as the kernel found them. -/
theorem array (c : Dev nD) : (dat0 V c).arrAt 2 cfg0.N = byCols (V c main_v4) (V c main_v3) :=
  (dat0 V c).arrAt_eq_of_cover 2 (byCols (V c main_v4) (V c main_v3)) (fun t _ => tile_written V c t) fun i => by
    have hi0 : (i 0).val < 4096 := (i 0).isLt
    have hi1 : (i 1).val < 4096 := (i 1).isLt
    obtain ⟨t, ht⟩ := every_tile ⟨(i 0).val / 512, by omega⟩ ⟨(i 1).val / 1024, by omega⟩
    have q0 : win0_2.index t (0 : Fin 2) = (i 0).val / 512 := congrFun ht 0
    have q1 : win0_2.index t (1 : Fin 2) = (i 1).val / 1024 := congrFun ht 1
    refine ⟨t, flush0_2 t, ?_⟩
    rw [in_tile]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1024 ≤ (i 1).val ∧ (i 1).val < win0_2.index t (1 : Fin 2) * 1024 + 1024; omega

end Cert.KernelIdeal.Weight

end
-- ==== Proof.OutputArray.lean ====
/-
  The second kernel's result array: its first operand times the transpose of its second.

  The kernel walks an 8 × 8 grid. At a grid point it is handed a 1024-row band of the first operand (all 4096 columns), a
  512-row band of the second operand (all 4096 columns), and writes back the 1024 × 512 tile of the result where the first
  band's rows meet the second band's rows. An entry of that tile is a row of the first band against a ROW of the second
  (`Blocks.rows_by_rows`); the first band's row is the result's row and the second band's row is the result's column: so
  the tile IS the corresponding tile of `Products.byRows`. The 64 tiles are written once each and cover the 8192 × 4096
  result, so the result array ends at that product of the operand arrays as the kernel found them.
-/
import proofs.«147896_j34248069218802_2_alg».proof.Proof.Gen.KernelIdeal.Frame
import proofs.«147896_j34248069218802_2_alg».proof.Proof.BlockProducts
import proofs.«147896_j34248069218802_2_alg».proof.Proof.Products
import Idealize.ShloMosaic.Lib.Pipeline.Value
import Idealize.ShloMosaic.Lib.ValueIdx

set_option maxRecDepth 16384

noncomputable section

namespace Cert.KernelIdeal.Output

open Cert.KernelIdeal Cert.KernelIdeal.Gen Cert.Products
open Idealize.ShloMosaic Idealize.ShloMosaic.TcCoe Idealize.ShloMosaic.ValueIdx Idealize.SL.Sem
open Idealize.ShloMosaic.Pipeline (Dat)
open scoped BigOperators

-- the buffer contents when the kernel is entered
variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at a grid point: the first band shares the tile's block row, the second band's block
    row is the tile's block column, both start at column 0; the tile's block row and block column are below 8. Decided
    over the 64 points. -/
theorem places : ∀ t : Fin cfg1.N, win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) < 8 ∧ win1_2.index t (1 : Fin 2) < 8 :=
  (by decide +kernel : ∀ t : Fin grid1.N, _)

/-- Every tile position is some grid point's. -/
theorem every_tile : ∀ (r : Fin 8) (s : Fin 8), ∃ t : Fin cfg1.N, win1_2.index t = ![r.val, s.val] :=
  (by decide +kernel : ∀ (r : Fin 8) (s : Fin 8), ∃ t : Fin grid1.N, win1_2.index t = ![r.val, s.val])

/-- The first band at a point, entry `(p,k)`, is the first operand at row `1024·(tile's block row) + p`, column `k`. -/
theorem first_band (c : Dev nD) (t : Fin cfg1.N) (p : Fin 1024) (k : Fin 4096) (r : Fin 8192)
    (hr : r.val = win1_2.index t (0 : Fin 2) * 1024 + p.val) :
    (iblk1 V c 0 t : S1024x4096.Idx → EReal) (ix2 p k) = (V c main_v7 : S8192x4096.Idx → EReal) (ix2 r k) := by
  obtain ⟨e0, e1, -, -, -, -⟩ := places t
  show (V c main_v7 : S8192x4096.Idx → EReal) (((cfg1.win 0).blk t).view.emb (ix2 p k)) = _
  refine congrArg (V c main_v7 : S8192x4096.Idx → EReal) (funext fun a => Fin.ext ?_)
  match a with
  | ⟨0, _⟩ => show win1_0.index t (0 : Fin 2) * 1024 + 1 * p.val = r.val; omega
  | ⟨1, _⟩ => show win1_0.index t (1 : Fin 2) * 4096 + 1 * k.val = k.val; omega

/-- The second band at a point, entry `(q,k)`, is the second operand at row `512·(tile's block column) + q`, column `k`. -/
theorem second_band (c : Dev nD) (t : Fin cfg1.N) (q : Fin 512) (k : Fin 4096) (s : Fin 4096)
    (hs : s.val = win1_2.index t (1 : Fin 2) * 512 + q.val) :
    (iblk1 V c 1 t : S512x4096.Idx → EReal) (ix2 q k) = (V c main_v5 : S4096x4096.Idx → EReal) (ix2 s k) := by
  obtain ⟨-, -, e2, e3, -, -⟩ := places t
  show (V c main_v5 : S4096x4096.Idx → EReal) (((cfg1.win 1).blk t).view.emb (ix2 q k)) = _
  refine congrArg (V c main_v5 : S4096x4096.Idx → EReal) (funext fun a => Fin.ext ?_)
  match a with
  | ⟨0, _⟩ => show win1_1.index t (0 : Fin 2) * 512 + 1 * q.val = s.val; omega
  | ⟨1, _⟩ => show win1_1.index t (1 : Fin 2) * 4096 + 1 * k.val = k.val; omega

/-- What a grid point writes back is its tile of the product with the transpose. -/
theorem tile_written (c : Dev nD) (t : Fin cfg1.N) :
    (dat1 V c).flushed 2 t = ((cfg1.win 2).blk t).view.read (Elt Ideal) (byRows (V c main_v7) (V c main_v5)) := by
  show (cfg1.win 2).cut (grid1.coords t) ((dat1 V c).after 2 t) = _
  rw [after1_2]
  unfold out1_2
  rw [View.canon_unit_zero zeros]
  simp only [View.ld_unit_zero (S := S1024x4096) zeros, View.ld_unit_zero (S := S512x4096) zeros]
  obtain ⟨-, -, -, -, b0, b1⟩ := places t
  show (k1_pay1 (F := Ideal) (iblk1 V c 0 t) (iblk1 V c 1 t) : S1024x512.Idx → EReal)
    = fun j => byRows (V c main_v7) (V c main_v5) (((cfg1.win 2).blk t).view.emb j)
  funext j
  obtain ⟨p, q, rfl⟩ : ∃ (p : Fin 1024) (q : Fin 512), j = ix2 p q := ⟨j 0, j 1, eq_ix2 j⟩
  refine (Blocks.rows_by_rows (iblk1 V c 0 t) (iblk1 V c 1 t) p q).trans ?_
  unfold byRows
  refine Finset.sum_congr rfl fun k _ => ?_
  refine congrArg₂ (· * ·) (first_band V c t p k _ ?_) (second_band V c t q k _ ?_)
  · show win1_2.index t (0 : Fin 2) * 1024 + 1 * p.val = _; omega
  · show win1_2.index t (1 : Fin 2) * 512 + 1 * q.val = _; omega

/-- An entry of the result lies in a point's tile iff each coordinate lies in the tile's range. -/
theorem in_tile (t : Fin cfg1.N) (i : S8192x4096.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v8).slice (win1_2.rect t)).set ↔ _
  rw [View.set_slice_whole, Rect.mem_set_unit]
  exact Iff.rfl

/-- The result array after the kernel: the first operand array times the transpose of the second, as the kernel found them. -/
theorem array (c : Dev nD) : (dat1 V c).arrAt 2 cfg1.N = byRows (V c main_v7) (V c main_v5) :=
  (dat1 V c).arrAt_eq_of_cover 2 (byRows (V c main_v7) (V c main_v5)) (fun t _ => tile_written V c t) fun i => by
    have hi0 : (i 0).val < 8192 := (i 0).isLt
    have hi1 : (i 1).val < 4096 := (i 1).isLt
    obtain ⟨t, ht⟩ := every_tile ⟨(i 0).val / 1024, by omega⟩ ⟨(i 1).val / 512, by omega⟩
    have q0 : win1_2.index t (0 : Fin 2) = (i 0).val / 1024 := congrFun ht 0
    have q1 : win1_2.index t (1 : Fin 2) = (i 1).val / 512 := congrFun ht 1
    refine ⟨t, flush1_2 t, ?_⟩
    rw [in_tile]
    intro a
    match a with
    | ⟨0, _⟩ => show win1_2.index t (0 : Fin 2) * 1024 ≤ (i 0).val ∧ (i 0).val < win1_2.index t (0 : Fin 2) * 1024 + 1024; omega
    | ⟨1, _⟩ => show win1_2.index t (1 : Fin 2) * 512 ≤ (i 1).val ∧ (i 1).val < win1_2.index t (1 : Fin 2) * 512 + 512; omega

end Cert.KernelIdeal.Output

end
-- ==== Proof.ResultArray.lean ====
/-
  The result array at the end of the idealized kernel program, as ONE function of the four argument arrays.

  Walking the boundaries backwards from the end:
  * the last host operation reshapes the second kernel's 8192 × 4096 result to 4 × 2048 × 4096;
  * the second kernel's result is its first operand times the transpose of its second (`Output.array`), read at the
    contents the kernel found;
  * its first operand is the activations, changed to the narrower float format and flattened to 8192 rows by the host
    stretch before it; its second operand is the first kernel's result, which that stretch does not touch;
  * the first kernel's result is the whole product of its operands (`Weight.array`), read at the contents it found;
  * its operands are the first factor changed to the narrower format, and the scale vector spread along the rows of the
    second factor, multiplied into it, then changed to the narrower format — all by the first host stretch;
  * and the argument arrays themselves are written by nothing, so each stretch finds them as launched.
  Over the extended reals the changes of format are the identity, but they are kept here as the program spells them; the
  comparison with the reference removes them.
-/
import proofs.«147896_j34248069218802_2_alg».proof.Proof.WholeRun
import proofs.«147896_j34248069218802_2_alg».proof.Proof.WeightArray
import proofs.«147896_j34248069218802_2_alg».proof.Proof.OutputArray
import Idealize.ShloMosaic.Lib.StableHlo.Run

set_option maxRecDepth 16384

noncomputable section

namespace Cert.KernelIdeal.Result

open Cert.KernelIdeal Cert.KernelIdeal.Gen Cert.Products
open Idealize.ShloMosaic Idealize.ShloMosaic.TcCoe Idealize.SL.Sem Idealize.ShloMosaic.StableHlo

variable (m : (ℓ : Loc nD τ sig) → Buf (Elt Ideal) ℓ) (ρ : Dev nD → PrngReg)

/-- The scale vector spread along rows and multiplied into the second factor, in the narrower format: the first kernel's
    right operand. -/
def scaled (S : S4096.Idx → EReal) (Vh : S4096x4096.Idx → EReal) : S4096x4096.Idx → EReal :=
  truncf (F := Ideal) .bf16
    (mulf (F := Ideal) (broadcastInDim S4096x4096 ![0, 1] bcast_S4096x1_S4096x4096_0_1 (broadcastInDim S4096x1 ![0] bcast_S4096_S4096x1_0 S)) Vh)
    bitsLt_bf16_f32

/-- The program's result as a function of its arguments. -/
def value (x : S4x2048x4096.Idx → EReal) (U : S4096x4096.Idx → EReal) (S : S4096.Idx → EReal) (Vh : S4096x4096.Idx → EReal) :
    S4x2048x4096.Idx → EReal :=
  shapeCast S4x2048x4096
    (byRows (shapeCast S8192x4096 (truncf (F := Ideal) .bf16 x bitsLt_bf16_f32) shapeCasts_S4x2048x4096_S8192x4096)
      (byCols (truncf (F := Ideal) .bf16 U bitsLt_bf16_f32) (scaled S Vh)))
    shapeCasts_S8192x4096_S4x2048x4096

/-! ## The arguments as each stretch finds them -/

theorem launch_arg0 (c : Dev nD) : W1 m ρ c (Proc.devRef .tc main_arg0) = m ((c : Thread nD τ).loc main_arg0) := by
  show StableHlo.after hostOps0 (W0 m ρ c) (Proc.devRef .tc main_arg0) = _
  after_results

/-! ## The first kernel's operands -/

theorem left_operand (c : Dev nD) :
    (V1 m ρ c main_v4 : S4096x4096.Idx → EReal) = truncf (F := Ideal) .bf16 (m ((c : Thread nD τ).loc main_arg1)) bitsLt_bf16_f32 := by
  show StableHlo.after hostOps0 (W0 m ρ c) (Proc.devRef .tc main_v4) = _
  after_results

theorem right_operand (c : Dev nD) :
    (V1 m ρ c main_v3 : S4096x4096.Idx → EReal) = scaled (m ((c : Thread nD τ).loc main_arg2)) (m ((c : Thread nD τ).loc main_arg3)) := by
  show StableHlo.after hostOps0 (W0 m ρ c) (Proc.devRef .tc main_v3) = _
  after_results
  rfl

/-! ## The second kernel's operands -/

theorem first_operand (c : Dev nD) :
    (V3 m ρ c main_v7 : S8192x4096.Idx → EReal)
      = shapeCast S8192x4096 (truncf (F := Ideal) .bf16 (m ((c : Thread nD τ).loc main_arg0)) bitsLt_bf16_f32) shapeCasts_S4x2048x4096_S8192x4096 := by
  show StableHlo.after hostOps1 (W2 m ρ c) (Proc.devRef .tc main_v7) = _
  after_results
  rw [W2_of_ne m ρ c main_arg0 (by decide), launch_arg0 m ρ c]
  rfl

theorem second_operand (c : Dev nD) :
    (V3 m ρ c main_v5 : S4096x4096.Idx → EReal)
      = byCols (truncf (F := Ideal) .bf16 (m ((c : Thread nD τ).loc main_arg1)) bitsLt_bf16_f32)
          (scaled (m ((c : Thread nD τ).loc main_arg2)) (m ((c : Thread nD τ).loc main_arg3))) := by
  show StableHlo.after hostOps1 (W2 m ρ c) (Proc.devRef .tc main_v5) = _
  after_results
  refine (W2_arr m ρ c 2).trans ?_
  rw [Weight.array (V1 m ρ) c, left_operand m ρ c, right_operand m ρ c]

/-! ## The result -/

/-- The result array at the last boundary is `value` of the launch contents of the four arguments. -/
theorem at_end (c : Dev nD) :
    (W5 m ρ c (Proc.devRef .tc main_v9) : S4x2048x4096.Idx → EReal)
      = value (m ((c : Thread nD τ).loc main_arg0)) (m ((c : Thread nD τ).loc main_arg1)) (m ((c : Thread nD τ).loc main_arg2)) (m ((c : Thread nD τ).loc main_arg3)) := by
  show StableHlo.after hostOps2 (W4 m ρ c) (Proc.devRef .tc main_v9) = _
  after_results
  rw [show W4 m ρ c (Proc.devRef .tc main_v8) = (dat1 (V3 m ρ) c).arrAt 2 cfg1.N from W4_arr m ρ c 2,
    Output.array (V3 m ρ) c, first_operand m ρ c, second_operand m ρ c]
  rfl

/-- The idealized kernel program's run, read: every weakly fair execution terminates, the result array at `value` of the
    arguments, the arguments unchanged. -/
theorem run : θ_run defs (onTc (τ := τ) (main (F := Ideal))) ⟨m, fun _ => 0, ρ⟩ (fun r => ∀ c : Dev nD,
      r.2.mem ((c.tc : Thread nD τ).loc main_v9)
        = value (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v9 (by decide))).trans (at_end m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)
    (Whole.run_last m ρ)

end Cert.KernelIdeal.Result

end
-- ==== Proof.SameFunction.lean ====
/-
  The idealized kernel program and the idealized reference compute the same function of the arguments.

  The reference spreads the scale vector along the rows of the second factor and multiplies it in, multiplies the first
  factor by that (rows against columns), then contracts the activations' last axis against the SECOND axis of the product
  — entry `(b,s,o)` is `∑ d, x[b,s,d] · W[o,d]`. The kernel program computes the same scaled factor with the same host
  operations, the same first product tile by tile, flattens the activations' two leading axes into one of 8192 rows
  (row `2048·b + s`), multiplies rows against rows tile by tile, and splits the rows again. The changes of float format in
  between are the identity over the extended reals. Entry by entry both are the same double sum, term for term in the same
  order: nothing is rearranged, so no law of the extended reals — and no finiteness of the inputs — is used.
-/
import proofs.«147896_j34248069218802_2_alg».proof.Proof.ResultArray
import proofs.«147896_j34248069218802_2_alg».proof.Proof.Gen.ReferenceIdeal.Read
import Idealize.ShloMosaic.Lib.Pipeline.Value
import Idealize.ShloMosaic.Lib.ValueIdx

noncomputable section

namespace Cert.Same

open Idealize.ShloMosaic Idealize.ShloMosaic.ValueIdx Cert.Products
open Cert.ReferenceIdeal.Read
open scoped BigOperators

/-- The first kernel's right operand is the reference's scaled factor: the same host operations, and a change of format. -/
theorem scaled_factor (S : Cert.KernelIdeal.S4096.Idx → EReal) (Vh : Cert.KernelIdeal.S4096x4096.Idx → EReal) :
    Cert.KernelIdeal.Result.scaled S Vh = val_main_v2 (F := Ideal) S Vh := rfl

/-- The reference's first product, entry by entry, is rows against columns. -/
theorem first_product (U : Sq.Idx → EReal) (S : Cert.KernelIdeal.S4096.Idx → EReal) (Vh : Sq.Idx → EReal) :
    val_main_v3 (F := Ideal) U S Vh = byCols U (val_main_v2 (F := Ideal) S Vh) := by
  funext j
  obtain ⟨o, d, rfl⟩ : ∃ (o d : Fin 4096), j = ix2 o d := ⟨j 0, j 1, eq_ix2 j⟩
  rw [val_main_v3_apply, byCols_apply]
  refine Finset.sum_congr rfl fun k _ => ?_
  have el : lidx_main_v3 (ix2 o d) k = ix2 o k := funext fun a => Fin.ext (by
    match a with
    | ⟨0, _⟩ => rfl
    | ⟨1, _⟩ => rfl)
  have er : ridx_main_v3 (ix2 o d) k = ix2 k d := funext fun a => Fin.ext (by
    match a with
    | ⟨0, _⟩ => rfl
    | ⟨1, _⟩ => rfl)
  rw [el, er]

/-- The kernel program's result function is the reference's. -/
theorem value_eq (x : Cert.KernelIdeal.S4x2048x4096.Idx → EReal) (U : Sq.Idx → EReal)
    (S : Cert.KernelIdeal.S4096.Idx → EReal) (Vh : Sq.Idx → EReal) :
    Cert.KernelIdeal.Result.value x U S Vh = val_main_v4 (F := Ideal) x U S Vh := by
  funext i
  obtain ⟨b, s, o, rfl⟩ : ∃ (b : Fin 4) (s : Fin 2048) (o : Fin 4096), i = ix3 b s o := ⟨i 0, i 1, i 2, eq_ix3 i⟩
  have hr : b.val * 2048 + s.val < 8192 := by omega
  unfold Cert.KernelIdeal.Result.value
  rw [shapeCast_apply _ _ (ix3 b s o) (ix2 (⟨b.val * 2048 + s.val, hr⟩ : Fin 8192) o)
      (by rw [Shape.rowMajor_val_two, Shape.rowMajor_val_three]; rfl),
    byRows_apply, val_main_v4_apply, first_product, scaled_factor]
  refine Finset.sum_congr rfl fun k _ => ?_
  refine congrArg₂ (· * ·) ?_ ?_
  · -- the flattened activations at row 2048·b + s are the activations at (b, s)
    rw [shapeCast_apply _ _ (ix2 (⟨b.val * 2048 + s.val, hr⟩ : Fin 8192) k) (ix3 b s k)
      (by rw [Shape.rowMajor_val_two, Shape.rowMajor_val_three]; rfl)]
    show x (ix3 b s k) = x (lidx_main_v4 (ix3 b s o) k)
    refine congrArg x (funext fun a => Fin.ext ?_)
    match a with
    | ⟨0, _⟩ => rfl
    | ⟨1, _⟩ => rfl
    | ⟨2, _⟩ => rfl
  · -- the first product is read at row o, column k on both sides
    show byCols U (val_main_v2 (F := Ideal) S Vh) (ix2 o k) = byCols U (val_main_v2 (F := Ideal) S Vh) (ridx_main_v4 (ix3 b s o) k)
    refine congrArg (byCols U (val_main_v2 (F := Ideal) S Vh)) (funext fun a => Fin.ext ?_)
    match a with
    | ⟨0, _⟩ => rfl
    | ⟨1, _⟩ => rfl

end Cert.Same

end
-- ==== Proof.lean ====
/-
  A linear layer whose weight is given factored as `U · diag(S) · Vh`:
  `out[b,s,o] = ∑ d, x[b,s,d] · W[o,d]` with `W[o,d] = ∑ r, U[o,r] · (S[r] · Vh[r,d])`.

  The kernel program forms `S[r] · Vh[r,d]` on the host, computes `W` by one tiled matrix-product kernel, flattens the
  activations to 8192 rows, computes `x · Wᵀ` by a second tiled matrix-product kernel, and splits the rows again, with
  changes to a narrower float format in between. The reference does the same two contractions whole. Over the extended
  reals a change of float format is the identity, a matrix product into a zero accumulator is the plain sum of products,
  and a tile of a product is the product of the bands that cross at it, so both programs end with the same double sum at
  every entry, term for term. Nothing is reordered: the comparison uses no law of the extended reals and never opens the
  precondition that the inputs are finite.

  The pieces: `BlockProducts` (what each kernel body stores, at an entry), `Products` (the two whole-array products),
  `WeightArray` and `OutputArray` (each kernel's result array is the whole product of the arrays it found),
  `WholeRun` (the program run to its end with every lasting buffer read back), `ResultArray` (the result array as one
  function of the arguments), `SameFunction` (that function is the reference's). The three frames are the generated ones;
  the idealization rewrote nothing, so the preservation claim is empty.
-/
import proofs.«147896_j34248069218802_2_alg».proof.Defs
import proofs.«147896_j34248069218802_2_alg».proof.Proof.Gen.Kernel
import proofs.«147896_j34248069218802_2_alg».proof.Proof.Gen.Kernel.Frame
import proofs.«147896_j34248069218802_2_alg».proof.Proof.Gen.KernelIdeal
import proofs.«147896_j34248069218802_2_alg».proof.Proof.Gen.KernelIdeal.Frame
import proofs.«147896_j34248069218802_2_alg».proof.Proof.Gen.ReferenceIdeal
import proofs.«147896_j34248069218802_2_alg».proof.Proof.Gen.ReferenceIdeal.Run
import proofs.«147896_j34248069218802_2_alg».proof.Proof.Gen.ReferenceIdeal.Read
import proofs.«147896_j34248069218802_2_alg».proof.Proof.Gen.Pre_finite_inputs
import proofs.«147896_j34248069218802_2_alg».proof.Proof.ResultArray
import proofs.«147896_j34248069218802_2_alg».proof.Proof.SameFunction
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and both end with the result array at the same
    function of the arguments: the kernel program's by `Result.run`, the reference's by its generated run and
    `Same.value_eq`. -/
theorem algebraic : Cert.algebraic_KernelIdeal_ReferenceIdeal := by
  intro m ρ m' ρ' _ hagree
  refine ⟨fun c => Cert.KernelIdeal.Result.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Cert.Same.value_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
